-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S2000x64 : Shape := ⟨2, ![2000, 64]⟩

abbrev nBuf : Space → Nat
  | .hbm => 215
  | .vmem => 10
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x800000, .i32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .f32⟩
  | 49 => ⟨S50000x64, .f32⟩
  | 50 => ⟨S50000x64, .f32⟩
  | 51 => ⟨S850000x1, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S850000x1, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x64, .f32⟩
  | 81 => ⟨S850000x64, .f32⟩
  | 82 => ⟨S850000x64, .f32⟩
  | 83 => ⟨S_, .f32⟩
  | 84 => ⟨S50000x64, .f32⟩
  | 85 => ⟨S850000x1, .i32⟩
  | 86 => ⟨S50000x64, .f32⟩
  | 87 => ⟨S_, .f32⟩
  | 88 => ⟨S50000x64, .f32⟩
  | 89 => ⟨S50000x64, .f32⟩
  | 90 => ⟨S50000x64, .f32⟩
  | 91 => ⟨S850000x1, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .f32⟩
  | 101 => ⟨S850000x64, .f32⟩
  | 102 => ⟨S850000x64, .f32⟩
  | 103 => ⟨S_, .f32⟩
  | 104 => ⟨S50000x64, .f32⟩
  | 105 => ⟨S850000x1, .i32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S_, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S850000x1, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x64, .f32⟩
  | 13 => ⟨S850000x64, .f32⟩
  | 14 => ⟨S850000x64, .f32⟩
  | 15 => ⟨S_, .f32⟩
  | 16 => ⟨S50000x64, .f32⟩
  | 17 => ⟨S850000x1, .i32⟩
  | 18 => ⟨S50000x64, .f32⟩
  | 19 => ⟨S_, .f32⟩
  | 20 => ⟨S50000x64, .f32⟩
  | 21 => ⟨S50000x64, .f32⟩
  | 22 => ⟨S50000x64, .f32⟩
  | 23 => ⟨S850000x1, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x64, .f32⟩
  | 33 => ⟨S850000x64, .f32⟩
  | 34 => ⟨S850000x64, .f32⟩
  | 35 => ⟨S_, .f32⟩
  | 36 => ⟨S50000x64, .f32⟩
  | 37 => ⟨S850000x1, .i32⟩
  | 38 => ⟨S50000x64, .f32⟩
  | 39 => ⟨S_, .f32⟩
  | 40 => ⟨S50000x64, .f32⟩
  | 41 => ⟨S50000x64, .f32⟩
  | 42 => ⟨S50000x64, .f32⟩
  | 43 => ⟨S850000x1, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x64, .f32⟩
  | 53 => ⟨S850000x64, .f32⟩
  | 54 => ⟨S850000x64, .f32⟩
  | 55 => ⟨S_, .f32⟩
  | 56 => ⟨S50000x64, .f32⟩
  | 57 => ⟨S850000x1, .i32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S850000x1, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x64, .f32⟩
  | 73 => ⟨S850000x64, .f32⟩
  | 74 => ⟨S850000x64, .f32⟩
  | 75 => ⟨S_, .f32⟩
  | 76 => ⟨S50000x64, .f32⟩
  | 77 => ⟨S850000x1, .i32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S1x64, .f32⟩
  | 84 => ⟨S1x64, .f32⟩
  | 85 => ⟨S1x64, .f32⟩
  | 86 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_c_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_21 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_22 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_23 : Ref sig .tc := ⟨.hbm, 132, rfl⟩
abbrev main_v97 : Ref sig .tc := ⟨.hbm, 133, rfl⟩
abbrev main_v98 : Ref sig .tc := ⟨.hbm, 134, rfl⟩
abbrev main_c_24 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_25 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_26 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_c_27 : Ref sig .tc := ⟨.hbm, 152, rfl⟩
abbrev main_v113 : Ref sig .tc := ⟨.hbm, 153, rfl⟩
abbrev main_v114 : Ref sig .tc := ⟨.hbm, 154, rfl⟩
abbrev main_c_28 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_29 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_30 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_31 : Ref sig .tc := ⟨.hbm, 172, rfl⟩
abbrev main_v129 : Ref sig .tc := ⟨.hbm, 173, rfl⟩
abbrev main_v130 : Ref sig .tc := ⟨.hbm, 174, rfl⟩
abbrev main_c_32 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_33 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_34 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_35 : Ref sig .tc := ⟨.hbm, 192, rfl⟩
abbrev main_v145 : Ref sig .tc := ⟨.hbm, 193, rfl⟩
abbrev main_v146 : Ref sig .tc := ⟨.hbm, 194, rfl⟩
abbrev main_c_36 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_37 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_38 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S50000x64 : S_.BroadcastsInDim S50000x64 (![] : Fin 0 → Fin S50000x64.rank)
  bcast_S850000x1_S850000x64_0_1 : S850000x1.BroadcastsInDim S850000x64 (![0, 1] : Fin 2 → Fin S850000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S50000x64.size a
  hwx0_7 : ∀ i : grid0.Coords, EltTy.bits .f32 = 32 ∨ (Rect.block (s := S50000x64) S2000x64.size (cc0_transform_7 i) (hinb0_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v159) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v160) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v161) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v162) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v163) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 232
  | .vmem => 0
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x800000, .i32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .f32⟩
  | 49 => ⟨S50000x64, .f32⟩
  | 50 => ⟨S50000x64, .f32⟩
  | 51 => ⟨S850000x1, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S850000x1, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x64, .f32⟩
  | 81 => ⟨S850000x64, .f32⟩
  | 82 => ⟨S850000x64, .f32⟩
  | 83 => ⟨S_, .f32⟩
  | 84 => ⟨S50000x64, .f32⟩
  | 85 => ⟨S850000x1, .i32⟩
  | 86 => ⟨S50000x64, .f32⟩
  | 87 => ⟨S_, .f32⟩
  | 88 => ⟨S50000x64, .f32⟩
  | 89 => ⟨S50000x64, .f32⟩
  | 90 => ⟨S50000x64, .f32⟩
  | 91 => ⟨S850000x1, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .f32⟩
  | 101 => ⟨S850000x64, .f32⟩
  | 102 => ⟨S850000x64, .f32⟩
  | 103 => ⟨S_, .f32⟩
  | 104 => ⟨S50000x64, .f32⟩
  | 105 => ⟨S850000x1, .i32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S_, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S850000x1, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x64, .f32⟩
  | 13 => ⟨S850000x64, .f32⟩
  | 14 => ⟨S850000x64, .f32⟩
  | 15 => ⟨S_, .f32⟩
  | 16 => ⟨S50000x64, .f32⟩
  | 17 => ⟨S850000x1, .i32⟩
  | 18 => ⟨S50000x64, .f32⟩
  | 19 => ⟨S_, .f32⟩
  | 20 => ⟨S50000x64, .f32⟩
  | 21 => ⟨S50000x64, .f32⟩
  | 22 => ⟨S50000x64, .f32⟩
  | 23 => ⟨S850000x1, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x64, .f32⟩
  | 33 => ⟨S850000x64, .f32⟩
  | 34 => ⟨S850000x64, .f32⟩
  | 35 => ⟨S_, .f32⟩
  | 36 => ⟨S50000x64, .f32⟩
  | 37 => ⟨S850000x1, .i32⟩
  | 38 => ⟨S50000x64, .f32⟩
  | 39 => ⟨S_, .f32⟩
  | 40 => ⟨S50000x64, .f32⟩
  | 41 => ⟨S50000x64, .f32⟩
  | 42 => ⟨S50000x64, .f32⟩
  | 43 => ⟨S850000x1, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x64, .f32⟩
  | 53 => ⟨S850000x64, .f32⟩
  | 54 => ⟨S850000x64, .f32⟩
  | 55 => ⟨S_, .f32⟩
  | 56 => ⟨S50000x64, .f32⟩
  | 57 => ⟨S850000x1, .i32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S850000x1, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x64, .f32⟩
  | 73 => ⟨S850000x64, .f32⟩
  | 74 => ⟨S850000x64, .f32⟩
  | 75 => ⟨S_, .f32⟩
  | 76 => ⟨S50000x64, .f32⟩
  | 77 => ⟨S850000x1, .i32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S64x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S64x64, .f32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S64x64, .f32⟩
  | 100 => ⟨S50000x64, .f32⟩
  | 101 => ⟨S1x64, .f32⟩
  | 102 => ⟨S50000x64, .f32⟩
  | 103 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_c_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_21 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_22 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_23 : Ref sig .tc := ⟨.hbm, 132, rfl⟩
abbrev main_v97 : Ref sig .tc := ⟨.hbm, 133, rfl⟩
abbrev main_v98 : Ref sig .tc := ⟨.hbm, 134, rfl⟩
abbrev main_c_24 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_25 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_26 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_c_27 : Ref sig .tc := ⟨.hbm, 152, rfl⟩
abbrev main_v113 : Ref sig .tc := ⟨.hbm, 153, rfl⟩
abbrev main_v114 : Ref sig .tc := ⟨.hbm, 154, rfl⟩
abbrev main_c_28 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_29 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_30 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_31 : Ref sig .tc := ⟨.hbm, 172, rfl⟩
abbrev main_v129 : Ref sig .tc := ⟨.hbm, 173, rfl⟩
abbrev main_v130 : Ref sig .tc := ⟨.hbm, 174, rfl⟩
abbrev main_c_32 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_33 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_34 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_35 : Ref sig .tc := ⟨.hbm, 192, rfl⟩
abbrev main_v145 : Ref sig .tc := ⟨.hbm, 193, rfl⟩
abbrev main_v146 : Ref sig .tc := ⟨.hbm, 194, rfl⟩
abbrev main_c_36 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_37 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_38 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_call1_cst : Ref sig .tc := ⟨.hbm, 216, rfl⟩
abbrev main_call1_v0 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_call2_cst : Ref sig .tc := ⟨.hbm, 224, rfl⟩
abbrev main_call2_v0 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S50000x64 : S_.BroadcastsInDim S50000x64 (![] : Fin 0 → Fin S50000x64.rank)
  bcast_S850000x1_S850000x64_0_1 : S850000x1.BroadcastsInDim S850000x64 (![0, 1] : Fin 2 → Fin S850000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Head.lean ====
/-
  The head of the network, one row at a time.  A dense layer sends a row r of length 64 to the row whose entry q is
  (sum over k of r k * W q k) + b q  -- the row times the TRANSPOSE of the weight matrix, plus the bias --, and the head
  is three dense layers with the ramp  y |-> max y 0  after the first two.  Everything is stated on the extended reals,
  with nothing assumed finite: both programs compute this same expression, term for term, so no law of arithmetic
  beyond reading the sums at an index is needed.
-/
import Idealize.ShloMosaic.PureOps.Ideal
import Idealize.ShloMosaic.Lib.ValueIdx

noncomputable section

namespace Cert.Head

open Idealize.ShloMosaic Idealize.ShloMosaic.ValueIdx

/-- One dense layer on a row: entry q is the inner product of the row with row q of the weight, plus the bias. -/
def dense (r : Fin 64 → EReal) (W : Fin 64 → Fin 64 → EReal) (b : Fin 64 → EReal) (q : Fin 64) : EReal :=
  (∑ k : Fin 64, r k * W q k) + b q

/-- The ramp. -/
def ramp (y : EReal) : EReal := max y 0

/-- The head on a row: dense, ramp, dense, ramp, dense. -/
def mlp (r : Fin 64 → EReal) (Wc : Fin 64 → Fin 64 → EReal) (bc : Fin 64 → EReal) (W1 : Fin 64 → Fin 64 → EReal)
    (b1 : Fin 64 → EReal) (W2 : Fin 64 → Fin 64 → EReal) (b2 : Fin 64 → EReal) (q : Fin 64) : EReal :=
  dense (fun j => ramp (dense (fun j' => ramp (dense r Wc bc j')) W1 b1 j)) W2 b2 q

/-- The head applied to every row of an n x 64 array: entry (p, q) depends on row p of the array only. -/
def rows {n : ℕ} (h : (⟨2, ![n, 64]⟩ : Shape).Idx → EReal) (Wc : Fin 64 → Fin 64 → EReal) (bc : Fin 64 → EReal)
    (W1 : Fin 64 → Fin 64 → EReal) (b1 : Fin 64 → EReal) (W2 : Fin 64 → Fin 64 → EReal) (b2 : Fin 64 → EReal) :
    (⟨2, ![n, 64]⟩ : Shape).Idx → EReal :=
  fun i => mlp (fun k => h (ix2 (i 0) k)) Wc bc W1 b1 W2 b2 (i 1)

theorem rows_ix2 {n : ℕ} (h : (⟨2, ![n, 64]⟩ : Shape).Idx → EReal) (Wc : Fin 64 → Fin 64 → EReal) (bc : Fin 64 → EReal)
    (W1 : Fin 64 → Fin 64 → EReal) (b1 : Fin 64 → EReal) (W2 : Fin 64 → Fin 64 → EReal) (b2 : Fin 64 → EReal)
    (p : Fin n) (q : Fin 64) :
    rows h Wc bc W1 b1 W2 b2 (ix2 p q) = mlp (fun k => h (ix2 p k)) Wc bc W1 b1 W2 b2 q := rfl

end Cert.Head

end
-- ==== Proof.RefHead.lean ====
/-
  The reference's last seventeen operations, read at an entry.  From the propagated features h (the value of its
  operation 159, a function of the node features and the edge list) the reference computes, three times over, a
  product with a transposed 64 x 64 weight plus a bias vector repeated down the rows, with a maximum against zero after
  the first two: entry (p, q) of the result is the head of row p of h.
-/
import proofs.«104664_j15934328669027_1_alg».proof.Proof.ReadPatched
import proofs.«104664_j15934328669027_1_alg».proof.Proof.Head
import Idealize.ShloMosaic.Lib.ValueIdx
import Idealize.ShloMosaic.PureOps.Ideal.Laws

noncomputable section

namespace Cert.ReferenceIdeal.RefHead

open Cert.ReferenceIdeal Cert.ReferenceIdeal.ReadP Idealize.ShloMosaic Idealize.ShloMosaic.ValueIdx

/-- The maximum against the host's zero constant is the ramp. -/
theorem max_zero (y : EReal) : FloatOps.maximumf (F := Ideal) (φ := .f32) y (FloatOps.ofBits .f32 0x00000000#32) = Cert.Head.ramp y := by
  show max y (Ideal.ofBits .f32 0x00000000#32) = max y 0
  rw [Ideal.ofBits_zero_f32]

/-- First layer at (p, q): the dense layer of row p of the propagated features. -/
theorem layer1 (x0 : (⟨S50000x64, .f32⟩ : BufTy).Contents (Elt Ideal)) (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S2x800000, .i32⟩ : BufTy).Contents (Elt Ideal)) (p : Fin 50000) (q : Fin 64) :
    val_main_v164 (F := Ideal) x0 x1 x2 x7 (ix2 p q)
      = Cert.Head.dense (fun k => val_main_v159 (F := Ideal) x0 x7 (ix2 p k)) (fun a k => x1 (ix2 a k)) (fun a => x2 (ix1 a)) q := by
  rw [val_main_v164_apply, val_main_v161_apply, val_main_v163_apply, val_main_v162_apply]
  unfold Cert.Head.dense
  refine congrArg₂ (· + ·) (Finset.sum_congr rfl fun k _ => ?_) ?_
  · rw [val_main_v160_apply]
    have el : lidx_main_v161 (ix2 p q) k = ix2 p k := funext fun a => Fin.ext (by
      match a with
      | ⟨0, _⟩ => rfl
      | ⟨1, _⟩ => rfl)
    have er : idx_main_v160 (ridx_main_v161 (ix2 p q) k) = ix2 q k := funext fun a => Fin.ext (by
      match a with
      | ⟨0, _⟩ => rfl
      | ⟨1, _⟩ => rfl)
    rw [el, er]
  · have eb : idx_main_v162 (idx_main_v163 (ix2 p q)) = ix1 q := funext fun a => Fin.ext (by
      match a with
      | ⟨0, _⟩ => rfl)
    rw [eb]

/-- The first ramp. -/
theorem ramp1 (x0 : (⟨S50000x64, .f32⟩ : BufTy).Contents (Elt Ideal)) (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S2x800000, .i32⟩ : BufTy).Contents (Elt Ideal)) (i : S50000x64.Idx) :
    val_main_v165 (F := Ideal) x0 x1 x2 x7 i = Cert.Head.ramp (val_main_v164 (F := Ideal) x0 x1 x2 x7 i) := by
  rw [val_main_v165_apply, val_main_call1_v0_apply, val_main_call1_cst_apply]
  exact max_zero _

/-- Second layer at (p, q). -/
theorem layer2 (x0 : (⟨S50000x64, .f32⟩ : BufTy).Contents (Elt Ideal)) (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S2x800000, .i32⟩ : BufTy).Contents (Elt Ideal)) (p : Fin 50000) (q : Fin 64) :
    val_main_v170 (F := Ideal) x0 x1 x2 x3 x4 x7 (ix2 p q)
      = Cert.Head.dense (fun k => val_main_v165 (F := Ideal) x0 x1 x2 x7 (ix2 p k)) (fun a k => x3 (ix2 a k)) (fun a => x4 (ix1 a)) q := by
  rw [val_main_v170_apply, val_main_v167_apply, val_main_v169_apply, val_main_v168_apply]
  unfold Cert.Head.dense
  refine congrArg₂ (· + ·) (Finset.sum_congr rfl fun k _ => ?_) ?_
  · rw [val_main_v166_apply]
    have el : lidx_main_v167 (ix2 p q) k = ix2 p k := funext fun a => Fin.ext (by
      match a with
      | ⟨0, _⟩ => rfl
      | ⟨1, _⟩ => rfl)
    have er : idx_main_v166 (ridx_main_v167 (ix2 p q) k) = ix2 q k := funext fun a => Fin.ext (by
      match a with
      | ⟨0, _⟩ => rfl
      | ⟨1, _⟩ => rfl)
    rw [el, er]
  · have eb : idx_main_v168 (idx_main_v169 (ix2 p q)) = ix1 q := funext fun a => Fin.ext (by
      match a with
      | ⟨0, _⟩ => rfl)
    rw [eb]

/-- The second ramp. -/
theorem ramp2 (x0 : (⟨S50000x64, .f32⟩ : BufTy).Contents (Elt Ideal)) (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S2x800000, .i32⟩ : BufTy).Contents (Elt Ideal)) (i : S50000x64.Idx) :
    val_main_v171 (F := Ideal) x0 x1 x2 x3 x4 x7 i = Cert.Head.ramp (val_main_v170 (F := Ideal) x0 x1 x2 x3 x4 x7 i) := by
  rw [val_main_v171_apply, val_main_call2_v0_apply, val_main_call2_cst_apply]
  exact max_zero _

/-- Third layer at (p, q). -/
theorem layer3 (x0 : (⟨S50000x64, .f32⟩ : BufTy).Contents (Elt Ideal)) (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S2x800000, .i32⟩ : BufTy).Contents (Elt Ideal)) (p : Fin 50000) (q : Fin 64) :
    val_main_v176 (F := Ideal) x0 x1 x2 x3 x4 x5 x6 x7 (ix2 p q)
      = Cert.Head.dense (fun k => val_main_v171 (F := Ideal) x0 x1 x2 x3 x4 x7 (ix2 p k)) (fun a k => x5 (ix2 a k)) (fun a => x6 (ix1 a)) q := by
  rw [val_main_v176_apply, val_main_v173_apply, val_main_v175_apply, val_main_v174_apply]
  unfold Cert.Head.dense
  refine congrArg₂ (· + ·) (Finset.sum_congr rfl fun k _ => ?_) ?_
  · rw [val_main_v172_apply]
    have el : lidx_main_v173 (ix2 p q) k = ix2 p k := funext fun a => Fin.ext (by
      match a with
      | ⟨0, _⟩ => rfl
      | ⟨1, _⟩ => rfl)
    have er : idx_main_v172 (ridx_main_v173 (ix2 p q) k) = ix2 q k := funext fun a => Fin.ext (by
      match a with
      | ⟨0, _⟩ => rfl
      | ⟨1, _⟩ => rfl)
    rw [el, er]
  · have eb : idx_main_v174 (idx_main_v175 (ix2 p q)) = ix1 q := funext fun a => Fin.ext (by
      match a with
      | ⟨0, _⟩ => rfl)
    rw [eb]

/-- THE REFERENCE'S RESULT is the head applied to every row of the propagated features. -/
theorem result_rows (x0 : (⟨S50000x64, .f32⟩ : BufTy).Contents (Elt Ideal)) (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S2x800000, .i32⟩ : BufTy).Contents (Elt Ideal)) :
    val_main_v176 (F := Ideal) x0 x1 x2 x3 x4 x5 x6 x7
      = Cert.Head.rows (n := 50000) (val_main_v159 (F := Ideal) x0 x7) (fun a k => x1 (ix2 a k)) (fun a => x2 (ix1 a))
          (fun a k => x3 (ix2 a k)) (fun a => x4 (ix1 a)) (fun a k => x5 (ix2 a k)) (fun a => x6 (ix1 a)) := by
  funext i
  obtain ⟨p, q, rfl⟩ : ∃ (p : Fin 50000) (q : Fin 64), i = ix2 p q := ⟨i 0, i 1, eq_ix2 i⟩
  rw [Cert.Head.rows_ix2, layer3 x0 x1 x2 x3 x4 x5 x6 x7]
  unfold Cert.Head.mlp
  refine congrArg (fun r => Cert.Head.dense r _ _ q) (funext fun j => ?_)
  rw [ramp2 x0 x1 x2 x3 x4 x5 x6 x7, layer2 x0 x1 x2 x3 x4 x5 x6 x7]
  refine congrArg Cert.Head.ramp (congrArg (fun r => Cert.Head.dense r _ _ j) (funext fun j' => ?_))
  rw [ramp1 x0 x1 x2 x3 x4 x5 x6 x7, layer1 x0 x1 x2 x3 x4 x5 x6 x7]

end Cert.ReferenceIdeal.RefHead

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«104664_j15934328669027_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.BodyRows.lean ====
/-
  What the kernel body writes, read at an entry.  On a block of 2000 rows the body computes, for every row p of the
  block, the head of that row: each of its three matrix products contracts the row with the TRANSPOSE of a 64 x 64
  weight (entry (k, q) of the transposed weight is entry (q, k) of the weight), adds the bias row (a 1 x 64 array
  repeated down the rows), and the first two layers end in a maximum with zero.  Narrowing a value to a shorter float
  format does nothing on the extended reals.
-/
import proofs.«104664_j15934328669027_1_alg».proof.Proof.Gen.KernelIdeal.Skeleton
import proofs.«104664_j15934328669027_1_alg».proof.Proof.Head
import proofs.«104664_j15934328669027_1_alg».proof.Proof.LibPlainLists
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The body's matrix product is a plain one: left contracted on its axis 1, right on its axis 0. -/
theorem plain : Cert.LibMatmulSum.Plain dot_S2000x64_S64x64_S2000x64_1_0_0_1_n_n :=
  Cert.LibMatmulSum.Plain.of_lists _ rfl rfl rfl rfl rfl rfl

/-- The transposed weight at (k, q) is the weight at (q, k). -/
theorem weightT_at {φ : FTy} (w : FVec Ideal S64x64 φ) (k q : Fin 64) :
    transpose S64x64 [1, 0] w transposes_S64x64_p1_0_S64x64 (ix2 k q) = w (ix2 q k) :=
  transpose_apply [1, 0] w transposes_S64x64_p1_0_S64x64 (ix2 k q) (ix2 q k) (fun b => match b with
    | ⟨0, _⟩ => rfl
    | ⟨1, _⟩ => rfl)

/-- The bias row repeated down the 2000 rows, at (p, q), is its entry (0, q). -/
theorem bias_at (b : FVec Ideal S1x64 .f32) (p : Fin 2000) (q : Fin 64) :
    broadcastTo S2000x64 (shapeCast S1x64 b shapeCasts_S1x64_S1x64) broadcasts_S1x64_S2000x64 (ix2 p q) = b (ix2 0 q) := by
  rw [shapeCast_self]
  exact broadcastTo_apply b broadcasts_S1x64_S2000x64 (ix2 p q) (ix2 0 q) (fun a => match a with
    | ⟨0, _⟩ => by show (0 : ℕ) = if (1 : ℕ) = 1 then 0 else p.val; rw [if_pos rfl]
    | ⟨1, _⟩ => by show q.val = if (64 : ℕ) = 1 then 0 else q.val; rw [if_neg (by decide)])

/-- One layer of the body at (p, q): the dense layer of row p. -/
theorem layer_at (l : FVec Ideal S2000x64 .bf16) (w : FVec Ideal S64x64 .bf16) (b : FVec Ideal S1x64 .f32) (p : Fin 2000) (q : Fin 64) :
    addf (matmul dot_S2000x64_S64x64_S2000x64_1_0_0_1_n_n none l (transpose S64x64 [1, 0] w transposes_S64x64_p1_0_S64x64)
        (constant S2000x64 .f32 0x00000000#32))
      (broadcastTo S2000x64 (shapeCast S1x64 b shapeCasts_S1x64_S1x64) broadcasts_S1x64_S2000x64) (ix2 p q)
    = Cert.Head.dense (fun k => l (ix2 p k)) (fun a k => w (ix2 a k)) (fun a => b (ix2 0 a)) q := by
  rw [addf_apply, bias_at]
  unfold Cert.Head.dense
  refine congrArg (· + b (ix2 0 q)) ?_
  refine (Cert.LibMatmulSum.matmul_zero_at plain none l _ p q).trans ?_
  exact Finset.sum_congr rfl fun k _ => by rw [weightT_at]

/-- The maximum with the zero splat is the ramp. -/
theorem ramp_at (y : FVec Ideal S2000x64 .f32) (i : S2000x64.Idx) :
    maximumf y (broadcast S2000x64 (Scalar.ofBits (F := Ideal) .f32 0x00000000#32)) i = Cert.Head.ramp (y i) := by
  show max (y i) (Ideal.ofBits .f32 0x00000000#32) = max (y i) 0
  rw [Ideal.ofBits_zero_f32]

/-- THE BODY'S RESULT AT (p, q): the head of row p of the block, with the weights and bias rows as loaded. -/
theorem pay_at (x0 : Vec Ideal S2000x64 .f32) (x1 : Vec Ideal S64x64 .f32) (x2 : Vec Ideal S1x64 .f32)
    (x3 : Vec Ideal S64x64 .f32) (x4 : Vec Ideal S1x64 .f32) (x5 : Vec Ideal S64x64 .f32) (x6 : Vec Ideal S1x64 .f32)
    (p : Fin 2000) (q : Fin 64) :
    k0_pay1 (F := Ideal) x0 x1 x2 x3 x4 x5 x6 (ix2 p q)
      = Cert.Head.mlp (fun k => x0 (ix2 p k)) (fun a k => x1 (ix2 a k)) (fun a => x2 (ix2 0 a))
          (fun a k => x3 (ix2 a k)) (fun a => x4 (ix2 0 a)) (fun a k => x5 (ix2 a k)) (fun a => x6 (ix2 0 a)) q := by
  unfold k0_pay1
  dsimp only
  refine (layer_at _ _ _ p q).trans ?_
  unfold Cert.Head.mlp
  refine congrArg (fun r => Cert.Head.dense r _ _ q) (funext fun j => ?_)
  refine (ramp_at _ (ix2 p j)).trans (congrArg Cert.Head.ramp ?_)
  refine (layer_at _ _ _ p j).trans ?_
  refine congrArg (fun r => Cert.Head.dense r _ _ j) (funext fun j' => ?_)
  refine (ramp_at _ (ix2 p j')).trans (congrArg Cert.Head.ramp ?_)
  refine (layer_at _ _ _ p j').trans ?_
  refine congrArg (fun r => Cert.Head.dense r _ _ j') (funext fun k => ?_)
  show shapeCast S2000x64 x0 shapeCasts_S2000x64_S2000x64 (ix2 p k) = x0 (ix2 p k)
  rw [shapeCast_self]

end Cert.KernelIdeal.Body

end
-- ==== Proof.Blocks.lean ====
/-
  From the blocks to the whole array.  The grid has 25 points; at point t the feature window holds rows
  2000 t ... 2000 t + 1999 of the propagated features, the three weight windows and the three bias windows hold their
  whole arrays, and the output window's block is rows 2000 t ... 2000 t + 1999 of the result.  Since entry (p, q) of
  the head depends on row p of the features only, what point t writes back is block t of the head applied to every
  row of the whole feature array; the 25 blocks tile the 50000 rows, so that is what the result array ends holding.
-/
import proofs.«104664_j15934328669027_1_alg».proof.Proof.Gen.KernelIdeal.Value
import proofs.«104664_j15934328669027_1_alg».proof.Proof.BodyRows
import Idealize.ShloMosaic.Lib.Pipeline.Value
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The head applied to every row of the feature array the region finds, with the weights and the bias rows it finds. -/
abbrev whole (c : Dev nD) : S50000x64.Idx → EReal :=
  Cert.Head.rows (n := 50000) (V m c main_v159)
    (fun a k => (V m c main_arg1 : S64x64.Idx → EReal) (ix2 a k)) (fun a => (V m c main_v160 : S1x64.Idx → EReal) (ix2 0 a))
    (fun a k => (V m c main_arg3 : S64x64.Idx → EReal) (ix2 a k)) (fun a => (V m c main_v161 : S1x64.Idx → EReal) (ix2 0 a))
    (fun a k => (V m c main_arg5 : S64x64.Idx → EReal) (ix2 a k)) (fun a => (V m c main_v162 : S1x64.Idx → EReal) (ix2 0 a))

/-- The printed index maps over the grid: the feature and output windows move down the rows with the point, the
    weights and biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The feature window's block at point t is rows 2000 t ... 2000 t + 1999 of the feature array. -/
theorem feat_blk (c : Dev nD) (t : Fin cfg0.N) (p : Fin 2000) (k : Fin 64) (r : Fin 50000) (hr : r.val = 2000 * t.val + p.val) :
    (iblk m c 0 t : Vec Ideal S2000x64 .f32) (ix2 p k) = (V m c main_v159 : S50000x64.Idx → EReal) (ix2 r k) := by
  obtain ⟨e0, e1, -⟩ := idx_facts t
  unfold iblk
  rw [View.read_apply]
  show V m c main_v159 _ = V m c main_v159 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- A weight window's block is the whole weight. -/
theorem w1_blk (c : Dev nD) (t : Fin cfg0.N) (a k : Fin 64) :
    (iblk m c 1 t : Vec Ideal S64x64 .f32) (ix2 a k) = (V m c main_arg1 : S64x64.Idx → EReal) (ix2 a k) := by
  obtain ⟨-, -, e0, e1, -⟩ := idx_facts t
  unfold iblk
  rw [View.read_apply]
  show V m c main_arg1 _ = V m c main_arg1 _
  congr 1
  funext b
  apply Fin.ext
  match b with
  | ⟨0, _⟩ => show win0_1.index t (0 : Fin 2) * 64 + 1 * a.val = a.val; rw [e0]; omega
  | ⟨1, _⟩ => show win0_1.index t (1 : Fin 2) * 64 + 1 * k.val = k.val; rw [e1]; omega

theorem w3_blk (c : Dev nD) (t : Fin cfg0.N) (a k : Fin 64) :
    (iblk m c 3 t : Vec Ideal S64x64 .f32) (ix2 a k) = (V m c main_arg3 : S64x64.Idx → EReal) (ix2 a k) := by
  obtain ⟨-, -, -, -, -, -, e0, e1, -⟩ := idx_facts t
  unfold iblk
  rw [View.read_apply]
  show V m c main_arg3 _ = V m c main_arg3 _
  congr 1
  funext b
  apply Fin.ext
  match b with
  | ⟨0, _⟩ => show win0_3.index t (0 : Fin 2) * 64 + 1 * a.val = a.val; rw [e0]; omega
  | ⟨1, _⟩ => show win0_3.index t (1 : Fin 2) * 64 + 1 * k.val = k.val; rw [e1]; omega

theorem w5_blk (c : Dev nD) (t : Fin cfg0.N) (a k : Fin 64) :
    (iblk m c 5 t : Vec Ideal S64x64 .f32) (ix2 a k) = (V m c main_arg5 : S64x64.Idx → EReal) (ix2 a k) := by
  obtain ⟨-, -, -, -, -, -, -, -, -, -, e0, e1, -⟩ := idx_facts t
  unfold iblk
  rw [View.read_apply]
  show V m c main_arg5 _ = V m c main_arg5 _
  congr 1
  funext b
  apply Fin.ext
  match b with
  | ⟨0, _⟩ => show win0_5.index t (0 : Fin 2) * 64 + 1 * a.val = a.val; rw [e0]; omega
  | ⟨1, _⟩ => show win0_5.index t (1 : Fin 2) * 64 + 1 * k.val = k.val; rw [e1]; omega

/-- A bias window's block is the whole bias row. -/
theorem b2_blk (c : Dev nD) (t : Fin cfg0.N) (a : Fin 64) :
    (iblk m c 2 t : Vec Ideal S1x64 .f32) (ix2 0 a) = (V m c main_v160 : S1x64.Idx → EReal) (ix2 0 a) := by
  obtain ⟨-, -, -, -, e0, e1, -⟩ := idx_facts t
  unfold iblk
  rw [View.read_apply]
  show V m c main_v160 _ = V m c main_v160 _
  congr 1
  funext b
  apply Fin.ext
  match b with
  | ⟨0, _⟩ => show win0_2.index t (0 : Fin 2) * 1 + 1 * 0 = 0; rw [e0]
  | ⟨1, _⟩ => show win0_2.index t (1 : Fin 2) * 64 + 1 * a.val = a.val; rw [e1]; omega

theorem b4_blk (c : Dev nD) (t : Fin cfg0.N) (a : Fin 64) :
    (iblk m c 4 t : Vec Ideal S1x64 .f32) (ix2 0 a) = (V m c main_v161 : S1x64.Idx → EReal) (ix2 0 a) := by
  obtain ⟨-, -, -, -, -, -, -, -, e0, e1, -⟩ := idx_facts t
  unfold iblk
  rw [View.read_apply]
  show V m c main_v161 _ = V m c main_v161 _
  congr 1
  funext b
  apply Fin.ext
  match b with
  | ⟨0, _⟩ => show win0_4.index t (0 : Fin 2) * 1 + 1 * 0 = 0; rw [e0]
  | ⟨1, _⟩ => show win0_4.index t (1 : Fin 2) * 64 + 1 * a.val = a.val; rw [e1]; omega

theorem b6_blk (c : Dev nD) (t : Fin cfg0.N) (a : Fin 64) :
    (iblk m c 6 t : Vec Ideal S1x64 .f32) (ix2 0 a) = (V m c main_v162 : S1x64.Idx → EReal) (ix2 0 a) := by
  obtain ⟨-, -, -, -, -, -, -, -, -, -, -, -, e0, e1, -⟩ := idx_facts t
  unfold iblk
  rw [View.read_apply]
  show V m c main_v162 _ = V m c main_v162 _
  congr 1
  funext b
  apply Fin.ext
  match b with
  | ⟨0, _⟩ => show win0_6.index t (0 : Fin 2) * 1 + 1 * 0 = 0; rw [e0]
  | ⟨1, _⟩ => show win0_6.index t (1 : Fin 2) * 64 + 1 * a.val = a.val; rw [e1]; omega

/-- ONE POINT, over plain arrays: if a 2000-row block is rows base ... base + 1999 of a feature array H and the
    weight and bias blocks are the given weights and biases, the body's result at entry y of the block is the head of
    H's rows at the array entry i that y sits at. -/
theorem point_eq (x0 : Vec Ideal S2000x64 .f32) (x1 : Vec Ideal S64x64 .f32) (x2 : Vec Ideal S1x64 .f32)
    (x3 : Vec Ideal S64x64 .f32) (x4 : Vec Ideal S1x64 .f32) (x5 : Vec Ideal S64x64 .f32) (x6 : Vec Ideal S1x64 .f32)
    (H : S50000x64.Idx → EReal) (Wc : Fin 64 → Fin 64 → EReal) (bc : Fin 64 → EReal) (W1 : Fin 64 → Fin 64 → EReal)
    (b1 : Fin 64 → EReal) (W2 : Fin 64 → Fin 64 → EReal) (b2 : Fin 64 → EReal) (base : ℕ)
    (h0 : ∀ (p : Fin 2000) (k : Fin 64) (r : Fin 50000), r.val = base + p.val → x0 (ix2 p k) = H (ix2 r k))
    (h1 : ∀ a k : Fin 64, x1 (ix2 a k) = Wc a k) (h2 : ∀ a : Fin 64, x2 (ix2 0 a) = bc a)
    (h3 : ∀ a k : Fin 64, x3 (ix2 a k) = W1 a k) (h4 : ∀ a : Fin 64, x4 (ix2 0 a) = b1 a)
    (h5 : ∀ a k : Fin 64, x5 (ix2 a k) = W2 a k) (h6 : ∀ a : Fin 64, x6 (ix2 0 a) = b2 a)
    (y : S2000x64.Idx) (i : S50000x64.Idx) (hi0 : (i 0).val = base + (y 0).val) (hi1 : (i 1).val = (y 1).val) :
    k0_pay1 (F := Ideal) x0 x1 x2 x3 x4 x5 x6 y = Cert.Head.rows (n := 50000) H Wc bc W1 b1 W2 b2 i := by
  obtain ⟨p, q, rfl⟩ : ∃ (p : Fin 2000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  rw [Cert.KernelIdeal.Body.pay_at, Cert.Head.rows_ix2]
  have e0 : (fun k => x0 (ix2 p k)) = fun k => H (ix2 r k) := funext fun k => h0 p k r hi0
  have e1 : (fun a k => x1 (ix2 a k)) = Wc := funext fun a => funext fun k => h1 a k
  have e2 : (fun a => x2 (ix2 0 a)) = bc := funext h2
  have e3 : (fun a k => x3 (ix2 a k)) = W1 := funext fun a => funext fun k => h3 a k
  have e4 : (fun a => x4 (ix2 0 a)) = b1 := funext h4
  have e5 : (fun a k => x5 (ix2 a k)) = W2 := funext fun a => funext fun k => h5 a k
  have e6 : (fun a => x6 (ix2 0 a)) = b2 := funext h6
  rw [e0, e1, e2, e3, e4, e5, e6]

/-- WHAT POINT t WRITES BACK is block t of the head of the whole feature array. -/
theorem flushed_eq (c : Dev nD) (t : Fin cfg0.N) :
    (dats m 0 c).flushed 7 t = ((cfg0.win 7).blk t).view.read (Elt Ideal) (whole m c) := by
  obtain ⟨-, -, -, -, -, -, -, -, -, -, -, -, -, -, e70, e71⟩ := idx_facts t
  rw [flushed7]
  unfold out0_7
  rw [View.canon_unit_zero hz]
  simp only [View.ld_unit_zero (S := S2000x64) hz, View.ld_unit_zero (S := S64x64) hz, View.ld_unit_zero (S := S1x64) hz]
  funext j
  show k0_pay1 (F := Ideal) (iblk m c 0 t) (iblk m c 1 t) (iblk m c 2 t) (iblk m c 3 t) (iblk m c 4 t) (iblk m c 5 t) (iblk m c 6 t) j
    = whole m c (((cfg0.win 7).blk t).view.emb j)
  refine point_eq (iblk m c 0 t) (iblk m c 1 t) (iblk m c 2 t) (iblk m c 3 t) (iblk m c 4 t) (iblk m c 5 t) (iblk m c 6 t)
    (V m c main_v159) _ _ _ _ _ _ (2000 * t.val)
    (fun p k r hr => feat_blk m c t p k r hr) (fun a k => w1_blk m c t a k) (fun a => b2_blk m c t a)
    (fun a k => w3_blk m c t a k) (fun a => b4_blk m c t a) (fun a k => w5_blk m c t a k) (fun a => b6_blk m c t a)
    j _ ?_ ?_
  · show win0_7.index t (0 : Fin 2) * 2000 + 1 * (j 0).val = 2000 * t.val + (j 0).val
    rw [e70]; omega
  · show win0_7.index t (1 : Fin 2) * 64 + 1 * (j 1).val = (j 1).val
    rw [e71]; omega

/-- An index of the array is in point t's block iff each coordinate is in the block's range on its axis. -/
theorem mem_blk (t : Fin cfg0.N) (i : S50000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v163).slice (win0_7.rect t)).set ↔ _
  rw [View.set_slice_whole, Rect.mem_set_unit]
  exact Iff.rfl

/-- Every entry of the result lies in the block of the point its row falls to: row r is in block r / 2000. -/
theorem cover (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  have hN : cfg0.N = 25 := N_0
  have ht : (i 0).val / 2000 < cfg0.N := by rw [hN]; omega
  obtain ⟨-, -, -, -, -, -, -, -, -, -, -, -, -, -, e70, e71⟩ := idx_facts ⟨(i 0).val / 2000, ht⟩
  refine ⟨⟨(i 0).val / 2000, ht⟩, flush0_7 _, ?_⟩
  rw [mem_blk]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e70]; show (i 0).val / 2000 * 2000 ≤ (i 0).val ∧ (i 0).val < (i 0).val / 2000 * 2000 + 2000; omega
  | ⟨1, _⟩ =>
    show win0_7.index ⟨(i 0).val / 2000, ht⟩ (1 : Fin 2) * 64 ≤ (i 1).val ∧ (i 1).val < win0_7.index ⟨(i 0).val / 2000, ht⟩ (1 : Fin 2) * 64 + 64
    rw [e71]; omega

/-- THE RESULT ARRAY after the run is the head of every row of the feature array. -/
theorem final (c : Dev nD) : (dats m 0 c).arrAt 7 cfg0.N = whole m c :=
  (dats m 0 c).arrAt_eq_of_cover 7 (whole m c) (fun t _ => flushed_eq m c t) (cover)

end Cert.KernelIdeal.Whole

end
-- ==== Proof.Before.lean ====
/-
  Before the rounds.  The host first builds the source and destination lists (the edges' two rows, each followed by
  0 ... 49999 for the self loops), counts each node's degree by a scatter-add of ones at the destinations, and takes
  the reciprocal square root of the degree where it is positive and zero elsewhere (a small function of its own, run
  on buffers of its own); then each edge's weight is the product of that value at its two ends, and the running sum
  starts at six tenths of the node features.  Each stretch is run from buffer contents that are an unknown W holding
  the reference's values where the stretch reads; the first stretch is run from the launch contents themselves.
-/
import proofs.«104664_j15934328669027_1_alg».proof.Proof.Gen.KernelIdeal.Frame
import proofs.«104664_j15934328669027_1_alg».proof.Proof.ReadPatched
import Idealize.ShloMosaic.Lib.StableHlo.Run

noncomputable section

namespace Cert.KernelIdeal.Before

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 20000000 in
/-- The first eighteen operations, from the launch contents: the two lists, the degree test, its reciprocal square
    root and the zero the small function selects, as the reference's values of the edge list; the node features untouched. -/
theorem first (c : Dev nD) :
    (after hostOps0 (fun b => m (c, b)) main_v3 : S850000.Idx → BitVec 32) = Cert.ReferenceIdeal.ReadP.val_main_v3 (F := Ideal) (m ((c : Thread nD τ).loc main_arg7))
    ∧ (after hostOps0 (fun b => m (c, b)) main_v6 : S850000.Idx → BitVec 32) = Cert.ReferenceIdeal.ReadP.val_main_v6 (F := Ideal) (m ((c : Thread nD τ).loc main_arg7))
    ∧ (after hostOps0 (fun b => m (c, b)) main_v12 : S50000.Idx → BitVec 1) = Cert.ReferenceIdeal.ReadP.val_main_v12 (F := Ideal) (m ((c : Thread nD τ).loc main_arg7))
    ∧ (after hostOps0 (fun b => m (c, b)) main_v13 : S50000.Idx → EReal) = Cert.ReferenceIdeal.ReadP.val_main_v13 (F := Ideal) (m ((c : Thread nD τ).loc main_arg7))
    ∧ (after hostOps0 (fun b => m (c, b)) main_cst_2 : S_.Idx → EReal) = Cert.ReferenceIdeal.ReadP.val_main_cst_2 (F := Ideal)
    ∧ (after hostOps0 (fun b => m (c, b)) main_arg0 : S50000x64.Idx → EReal) = (m ((c : Thread nD τ).loc main_arg0)) := by
  simp only [hostOps0]
  refine ⟨?_, ?_, ?_, ?_, ?_, ?_⟩ <;> (after_results_simp <;> rfl)

set_option maxHeartbeats 20000000 in
/-- The small function's three operations: the selected value. -/
theorem second (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h12 : (W main_v12 : S50000.Idx → BitVec 1) = Cert.ReferenceIdeal.ReadP.val_main_v12 (F := Ideal) x7)
    (h13 : (W main_v13 : S50000.Idx → EReal) = Cert.ReferenceIdeal.ReadP.val_main_v13 (F := Ideal) x7)
    (hc : (W main_cst_2 : S_.Idx → EReal) = Cert.ReferenceIdeal.ReadP.val_main_cst_2 (F := Ideal))
    (ha : (W main_arg0 : S50000x64.Idx → EReal) = x0) :
    (after hostOps0_1 W main_v3 : S850000.Idx → BitVec 32) = Cert.ReferenceIdeal.ReadP.val_main_v3 (F := Ideal) x7
    ∧ (after hostOps0_1 W main_v6 : S850000.Idx → BitVec 32) = Cert.ReferenceIdeal.ReadP.val_main_v6 (F := Ideal) x7
    ∧ (after hostOps0_1 W main_v14 : S50000.Idx → EReal) = Cert.ReferenceIdeal.ReadP.val_main_v14 (F := Ideal) x7
    ∧ (after hostOps0_1 W main_arg0 : S50000x64.Idx → EReal) = x0 := by
  simp only [hostOps0_1]
  refine ⟨?_, ?_, ?_, ?_⟩
  · after_results_simp; exact h3
  · after_results_simp; exact h6
  · after_results_simp
    -- with the degree test, the reciprocal square root and the zero as three unknowns, both sides select between the
    -- second and the zero repeated over the nodes, by the first
    generalize hy12 : W (Proc.devRef .tc main_v12) = y12 at h12 ⊢
    generalize hy13 : W (Proc.devRef .tc main_v13) = y13 at h13 ⊢
    generalize hyc : W (Proc.devRef .tc main_cst_2) = yc at hc ⊢
    have e : Cert.ReferenceIdeal.ReadP.val_main_v14 (F := Ideal) x7 = select y12 y13 (broadcastInDim S50000 ![] bcast_S_S50000 (id yc)) := by
      rw [h12, h13, hc]; rfl
    rw [e]
    rfl
  · after_results_simp; exact ha

set_option maxHeartbeats 20000000 in
/-- The next twenty-two operations: the edge weights and the start of the running sum. -/
theorem third (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h14 : (W main_v14 : S50000.Idx → EReal) = Cert.ReferenceIdeal.ReadP.val_main_v14 (F := Ideal) x7)
    (ha : (W main_arg0 : S50000x64.Idx → EReal) = x0) :
    (after (List.take 22 hostOps0_2) W main_v3 : S850000.Idx → BitVec 32) = Cert.ReferenceIdeal.ReadP.val_main_v3 (F := Ideal) x7
    ∧ (after (List.take 22 hostOps0_2) W main_v6 : S850000.Idx → BitVec 32) = Cert.ReferenceIdeal.ReadP.val_main_v6 (F := Ideal) x7
    ∧ (after (List.take 22 hostOps0_2) W main_v29 : S850000.Idx → EReal) = Cert.ReferenceIdeal.ReadP.val_main_v29 (F := Ideal) x7
    ∧ (after (List.take 22 hostOps0_2) W main_arg0 : S50000x64.Idx → EReal) = x0
    ∧ (after (List.take 22 hostOps0_2) W main_v31 : S50000x64.Idx → EReal) = Cert.ReferenceIdeal.ReadP.val_main_v31 (F := Ideal) x0 := by
  simp only [hostOps0_2, List.take_succ_cons, List.take_zero, List.drop_succ_cons, List.drop_zero]
  refine ⟨?_, ?_, ?_, ?_, ?_⟩
  · after_results_simp; exact h3
  · after_results_simp; exact h6
  · after_results_simp; rw [h3, h6, h14]; rfl
  · after_results_simp; exact ha
  · after_results_simp; rw [ha]; rfl

end Cert.KernelIdeal.Before

end
-- ==== Proof.Rounds.lean ====
/-
  One round of propagation at a time.  Each of the eight rounds is a stretch of twenty host operations: from the
  source and destination lists, the edge weights, the previous round's features x and the running sum h it gathers
  the rows of x at the sources, scales them by the edge weights, scatter-adds them at the destinations into the next x,
  and adds a twentieth of that to h.  Started from ANY buffer contents in which those five arrays hold the
  reference's values, the stretch leaves the reference's next x and next h, and leaves the lists and the weights
  alone.  The contents before the stretch are an unknown W: nothing before the round is ever opened.
-/
import proofs.«104664_j15934328669027_1_alg».proof.Proof.Gen.KernelIdeal.Frame
import proofs.«104664_j15934328669027_1_alg».proof.Proof.ReadPatched
import Idealize.ShloMosaic.Lib.StableHlo.Run

noncomputable section

namespace Cert.KernelIdeal.Rounds

open Cert.KernelIdeal Cert.KernelIdeal.Gen Idealize.ShloMosaic Idealize.ShloMosaic.TcCoe Idealize.SL.Sem
open Idealize.ShloMosaic.StableHlo Idealize.ShloMosaic.ValueIdx

set_option maxHeartbeats 20000000 in
/-- Round 1. -/
theorem round1 (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h29 : (W main_v29 : S850000.Idx → EReal) = Cert.ReferenceIdeal.ReadP.val_main_v29 (F := Ideal) x7)
    (hx : (W main_arg0 : S50000x64.Idx → EReal) = x0)
    (hh : (W main_v31 : S50000x64.Idx → EReal) = Cert.ReferenceIdeal.ReadP.val_main_v31 (F := Ideal) x0) :
    (after (List.take 20 (List.drop 22 hostOps0_2)) W main_v3 : S850000.Idx → BitVec 32) = Cert.ReferenceIdeal.ReadP.val_main_v3 (F := Ideal) x7
    ∧ (after (List.take 20 (List.drop 22 hostOps0_2)) W main_v6 : S850000.Idx → BitVec 32) = Cert.ReferenceIdeal.ReadP.val_main_v6 (F := Ideal) x7
    ∧ (after (List.take 20 (List.drop 22 hostOps0_2)) W main_v29 : S850000.Idx → EReal) = Cert.ReferenceIdeal.ReadP.val_main_v29 (F := Ideal) x7
    ∧ (after (List.take 20 (List.drop 22 hostOps0_2)) W main_v44 : S50000x64.Idx → EReal) = Cert.ReferenceIdeal.ReadP.val_main_v44 (F := Ideal) x0 x7
    ∧ (after (List.take 20 (List.drop 22 hostOps0_2)) W main_v47 : S50000x64.Idx → EReal) = Cert.ReferenceIdeal.ReadP.val_main_v47 (F := Ideal) x0 x7 := by
  simp only [hostOps0_2, List.take_succ_cons, List.take_zero, List.drop_succ_cons, List.drop_zero]
  refine ⟨?_, ?_, ?_, ?_, ?_⟩
  · after_results_simp; exact h3
  · after_results_simp; exact h6
  · after_results_simp; exact h29
  · after_results_simp; rw [h3, h6, h29, hx]; rfl
  · after_results_simp; rw [h3, h6, h29, hx, hh]; rfl

set_option maxHeartbeats 20000000 in
/-- Round 2. -/
theorem round2 (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h29 : (W main_v29 : S850000.Idx → EReal) = Cert.ReferenceIdeal.ReadP.val_main_v29 (F := Ideal) x7)
    (hx : (W main_v44 : S50000x64.Idx → EReal) = Cert.ReferenceIdeal.ReadP.val_main_v44 (F := Ideal) x0 x7)
    (hh : (W main_v47 : S50000x64.Idx → EReal) = Cert.ReferenceIdeal.ReadP.val_main_v47 (F := Ideal) x0 x7) :
    (after (List.take 20 (List.drop 20 (List.drop 22 hostOps0_2))) W main_v3 : S850000.Idx → BitVec 32) = Cert.ReferenceIdeal.ReadP.val_main_v3 (F := Ideal) x7
    ∧ (after (List.take 20 (List.drop 20 (List.drop 22 hostOps0_2))) W main_v6 : S850000.Idx → BitVec 32) = Cert.ReferenceIdeal.ReadP.val_main_v6 (F := Ideal) x7
    ∧ (after (List.take 20 (List.drop 20 (List.drop 22 hostOps0_2))) W main_v29 : S850000.Idx → EReal) = Cert.ReferenceIdeal.ReadP.val_main_v29 (F := Ideal) x7
    ∧ (after (List.take 20 (List.drop 20 (List.drop 22 hostOps0_2))) W main_v60 : S50000x64.Idx → EReal) = Cert.ReferenceIdeal.ReadP.val_main_v60 (F := Ideal) x0 x7
    ∧ (after (List.take 20 (List.drop 20 (List.drop 22 hostOps0_2))) W main_v63 : S50000x64.Idx → EReal) = Cert.ReferenceIdeal.ReadP.val_main_v63 (F := Ideal) x0 x7 := by
  simp only [hostOps0_2, List.take_succ_cons, List.take_zero, List.drop_succ_cons, List.drop_zero]
  refine ⟨?_, ?_, ?_, ?_, ?_⟩
  · after_results_simp; exact h3
  · after_results_simp; exact h6
  · after_results_simp; exact h29
  · after_results_simp; rw [h3, h6, h29, hx]; rfl
  · after_results_simp; rw [h3, h6, h29, hx, hh]; rfl

set_option maxHeartbeats 20000000 in
/-- Round 3. -/
theorem round3 (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h29 : (W main_v29 : S850000.Idx → EReal) = Cert.ReferenceIdeal.ReadP.val_main_v29 (F := Ideal) x7)
    (hx : (W main_v60 : S50000x64.Idx → EReal) = Cert.ReferenceIdeal.ReadP.val_main_v60 (F := Ideal) x0 x7)
    (hh : (W main_v63 : S50000x64.Idx → EReal) = Cert.ReferenceIdeal.ReadP.val_main_v63 (F := Ideal) x0 x7) :
    (after (List.take 20 (List.drop 20 (List.drop 20 (List.drop 22 hostOps0_2)))) W main_v3 : S850000.Idx → BitVec 32) = Cert.ReferenceIdeal.ReadP.val_main_v3 (F := Ideal) x7
    ∧ (after (List.take 20 (List.drop 20 (List.drop 20 (List.drop 22 hostOps0_2)))) W main_v6 : S850000.Idx → BitVec 32) = Cert.ReferenceIdeal.ReadP.val_main_v6 (F := Ideal) x7
    ∧ (after (List.take 20 (List.drop 20 (List.drop 20 (List.drop 22 hostOps0_2)))) W main_v29 : S850000.Idx → EReal) = Cert.ReferenceIdeal.ReadP.val_main_v29 (F := Ideal) x7
    ∧ (after (List.take 20 (List.drop 20 (List.drop 20 (List.drop 22 hostOps0_2)))) W main_v76 : S50000x64.Idx → EReal) = Cert.ReferenceIdeal.ReadP.val_main_v76 (F := Ideal) x0 x7
    ∧ (after (List.take 20 (List.drop 20 (List.drop 20 (List.drop 22 hostOps0_2)))) W main_v79 : S50000x64.Idx → EReal) = Cert.ReferenceIdeal.ReadP.val_main_v79 (F := Ideal) x0 x7 := by
  simp only [hostOps0_2, List.take_succ_cons, List.take_zero, List.drop_succ_cons, List.drop_zero]
  refine ⟨?_, ?_, ?_, ?_, ?_⟩
  · after_results_simp; exact h3
  · after_results_simp; exact h6
  · after_results_simp; exact h29
  · after_results_simp; rw [h3, h6, h29, hx]; rfl
  · after_results_simp; rw [h3, h6, h29, hx, hh]; rfl

set_option maxHeartbeats 20000000 in
/-- Round 4. -/
theorem round4 (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h29 : (W main_v29 : S850000.Idx → EReal) = Cert.ReferenceIdeal.ReadP.val_main_v29 (F := Ideal) x7)
    (hx : (W main_v76 : S50000x64.Idx → EReal) = Cert.ReferenceIdeal.ReadP.val_main_v76 (F := Ideal) x0 x7)
    (hh : (W main_v79 : S50000x64.Idx → EReal) = Cert.ReferenceIdeal.ReadP.val_main_v79 (F := Ideal) x0 x7) :
    (after (List.take 20 (List.drop 20 (List.drop 20 (List.drop 20 (List.drop 22 hostOps0_2))))) W main_v3 : S850000.Idx → BitVec 32) = Cert.ReferenceIdeal.ReadP.val_main_v3 (F := Ideal) x7
    ∧ (after (List.take 20 (List.drop 20 (List.drop 20 (List.drop 20 (List.drop 22 hostOps0_2))))) W main_v6 : S850000.Idx → BitVec 32) = Cert.ReferenceIdeal.ReadP.val_main_v6 (F := Ideal) x7
    ∧ (after (List.take 20 (List.drop 20 (List.drop 20 (List.drop 20 (List.drop 22 hostOps0_2))))) W main_v29 : S850000.Idx → EReal) = Cert.ReferenceIdeal.ReadP.val_main_v29 (F := Ideal) x7
    ∧ (after (List.take 20 (List.drop 20 (List.drop 20 (List.drop 20 (List.drop 22 hostOps0_2))))) W main_v92 : S50000x64.Idx → EReal) = Cert.ReferenceIdeal.ReadP.val_main_v92 (F := Ideal) x0 x7
    ∧ (after (List.take 20 (List.drop 20 (List.drop 20 (List.drop 20 (List.drop 22 hostOps0_2))))) W main_v95 : S50000x64.Idx → EReal) = Cert.ReferenceIdeal.ReadP.val_main_v95 (F := Ideal) x0 x7 := by
  simp only [hostOps0_2, List.take_succ_cons, List.take_zero, List.drop_succ_cons, List.drop_zero]
  refine ⟨?_, ?_, ?_, ?_, ?_⟩
  · after_results_simp; exact h3
  · after_results_simp; exact h6
  · after_results_simp; exact h29
  · after_results_simp; rw [h3, h6, h29, hx]; rfl
  · after_results_simp; rw [h3, h6, h29, hx, hh]; rfl

set_option maxHeartbeats 20000000 in
/-- Round 5. -/
theorem round5 (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h29 : (W main_v29 : S850000.Idx → EReal) = Cert.ReferenceIdeal.ReadP.val_main_v29 (F := Ideal) x7)
    (hx : (W main_v92 : S50000x64.Idx → EReal) = Cert.ReferenceIdeal.ReadP.val_main_v92 (F := Ideal) x0 x7)
    (hh : (W main_v95 : S50000x64.Idx → EReal) = Cert.ReferenceIdeal.ReadP.val_main_v95 (F := Ideal) x0 x7) :
    (after (List.take 20 (List.drop 20 (List.drop 20 (List.drop 20 (List.drop 20 (List.drop 22 hostOps0_2)))))) W main_v3 : S850000.Idx → BitVec 32) = Cert.ReferenceIdeal.ReadP.val_main_v3 (F := Ideal) x7
    ∧ (after (List.take 20 (List.drop 20 (List.drop 20 (List.drop 20 (List.drop 20 (List.drop 22 hostOps0_2)))))) W main_v6 : S850000.Idx → BitVec 32) = Cert.ReferenceIdeal.ReadP.val_main_v6 (F := Ideal) x7
    ∧ (after (List.take 20 (List.drop 20 (List.drop 20 (List.drop 20 (List.drop 20 (List.drop 22 hostOps0_2)))))) W main_v29 : S850000.Idx → EReal) = Cert.ReferenceIdeal.ReadP.val_main_v29 (F := Ideal) x7
    ∧ (after (List.take 20 (List.drop 20 (List.drop 20 (List.drop 20 (List.drop 20 (List.drop 22 hostOps0_2)))))) W main_v108 : S50000x64.Idx → EReal) = Cert.ReferenceIdeal.ReadP.val_main_v108 (F := Ideal) x0 x7
    ∧ (after (List.take 20 (List.drop 20 (List.drop 20 (List.drop 20 (List.drop 20 (List.drop 22 hostOps0_2)))))) W main_v111 : S50000x64.Idx → EReal) = Cert.ReferenceIdeal.ReadP.val_main_v111 (F := Ideal) x0 x7 := by
  simp only [hostOps0_2, List.take_succ_cons, List.take_zero, List.drop_succ_cons, List.drop_zero]
  refine ⟨?_, ?_, ?_, ?_, ?_⟩
  · after_results_simp; exact h3
  · after_results_simp; exact h6
  · after_results_simp; exact h29
  · after_results_simp; rw [h3, h6, h29, hx]; rfl
  · after_results_simp; rw [h3, h6, h29, hx, hh]; rfl

set_option maxHeartbeats 20000000 in
/-- Round 6. -/
theorem round6 (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h29 : (W main_v29 : S850000.Idx → EReal) = Cert.ReferenceIdeal.ReadP.val_main_v29 (F := Ideal) x7)
    (hx : (W main_v108 : S50000x64.Idx → EReal) = Cert.ReferenceIdeal.ReadP.val_main_v108 (F := Ideal) x0 x7)
    (hh : (W main_v111 : S50000x64.Idx → EReal) = Cert.ReferenceIdeal.ReadP.val_main_v111 (F := Ideal) x0 x7) :
    (after (List.take 20 (List.drop 20 (List.drop 20 (List.drop 20 (List.drop 20 (List.drop 20 (List.drop 22 hostOps0_2))))))) W main_v3 : S850000.Idx → BitVec 32) = Cert.ReferenceIdeal.ReadP.val_main_v3 (F := Ideal) x7
    ∧ (after (List.take 20 (List.drop 20 (List.drop 20 (List.drop 20 (List.drop 20 (List.drop 20 (List.drop 22 hostOps0_2))))))) W main_v6 : S850000.Idx → BitVec 32) = Cert.ReferenceIdeal.ReadP.val_main_v6 (F := Ideal) x7
    ∧ (after (List.take 20 (List.drop 20 (List.drop 20 (List.drop 20 (List.drop 20 (List.drop 20 (List.drop 22 hostOps0_2))))))) W main_v29 : S850000.Idx → EReal) = Cert.ReferenceIdeal.ReadP.val_main_v29 (F := Ideal) x7
    ∧ (after (List.take 20 (List.drop 20 (List.drop 20 (List.drop 20 (List.drop 20 (List.drop 20 (List.drop 22 hostOps0_2))))))) W main_v124 : S50000x64.Idx → EReal) = Cert.ReferenceIdeal.ReadP.val_main_v124 (F := Ideal) x0 x7
    ∧ (after (List.take 20 (List.drop 20 (List.drop 20 (List.drop 20 (List.drop 20 (List.drop 20 (List.drop 22 hostOps0_2))))))) W main_v127 : S50000x64.Idx → EReal) = Cert.ReferenceIdeal.ReadP.val_main_v127 (F := Ideal) x0 x7 := by
  simp only [hostOps0_2, List.take_succ_cons, List.take_zero, List.drop_succ_cons, List.drop_zero]
  refine ⟨?_, ?_, ?_, ?_, ?_⟩
  · after_results_simp; exact h3
  · after_results_simp; exact h6
  · after_results_simp; exact h29
  · after_results_simp; rw [h3, h6, h29, hx]; rfl
  · after_results_simp; rw [h3, h6, h29, hx, hh]; rfl

set_option maxHeartbeats 20000000 in
/-- Round 7. -/
theorem round7 (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h29 : (W main_v29 : S850000.Idx → EReal) = Cert.ReferenceIdeal.ReadP.val_main_v29 (F := Ideal) x7)
    (hx : (W main_v124 : S50000x64.Idx → EReal) = Cert.ReferenceIdeal.ReadP.val_main_v124 (F := Ideal) x0 x7)
    (hh : (W main_v127 : S50000x64.Idx → EReal) = Cert.ReferenceIdeal.ReadP.val_main_v127 (F := Ideal) x0 x7) :
    (after (List.take 20 (List.drop 20 (List.drop 20 (List.drop 20 (List.drop 20 (List.drop 20 (List.drop 20 (List.drop 22 hostOps0_2)))))))) W main_v3 : S850000.Idx → BitVec 32) = Cert.ReferenceIdeal.ReadP.val_main_v3 (F := Ideal) x7
    ∧ (after (List.take 20 (List.drop 20 (List.drop 20 (List.drop 20 (List.drop 20 (List.drop 20 (List.drop 20 (List.drop 22 hostOps0_2)))))))) W main_v6 : S850000.Idx → BitVec 32) = Cert.ReferenceIdeal.ReadP.val_main_v6 (F := Ideal) x7
    ∧ (after (List.take 20 (List.drop 20 (List.drop 20 (List.drop 20 (List.drop 20 (List.drop 20 (List.drop 20 (List.drop 22 hostOps0_2)))))))) W main_v29 : S850000.Idx → EReal) = Cert.ReferenceIdeal.ReadP.val_main_v29 (F := Ideal) x7
    ∧ (after (List.take 20 (List.drop 20 (List.drop 20 (List.drop 20 (List.drop 20 (List.drop 20 (List.drop 20 (List.drop 22 hostOps0_2)))))))) W main_v140 : S50000x64.Idx → EReal) = Cert.ReferenceIdeal.ReadP.val_main_v140 (F := Ideal) x0 x7
    ∧ (after (List.take 20 (List.drop 20 (List.drop 20 (List.drop 20 (List.drop 20 (List.drop 20 (List.drop 20 (List.drop 22 hostOps0_2)))))))) W main_v143 : S50000x64.Idx → EReal) = Cert.ReferenceIdeal.ReadP.val_main_v143 (F := Ideal) x0 x7 := by
  simp only [hostOps0_2, List.take_succ_cons, List.take_zero, List.drop_succ_cons, List.drop_zero]
  refine ⟨?_, ?_, ?_, ?_, ?_⟩
  · after_results_simp; exact h3
  · after_results_simp; exact h6
  · after_results_simp; exact h29
  · after_results_simp; rw [h3, h6, h29, hx]; rfl
  · after_results_simp; rw [h3, h6, h29, hx, hh]; rfl

set_option maxHeartbeats 20000000 in
/-- Round 8. -/
theorem round8 (W : Valuation τ sig (Elt Ideal)) (x0 : S50000x64.Idx → EReal) (x7 : S2x800000.Idx → BitVec 32)
    (h3 : (W main_v3 : S850000.Idx → BitVec 32) = Cert.ReferenceIdeal.ReadP.val_main_v3 (F := Ideal) x7)
    (h6 : (W main_v6 : S850000.Idx → BitVec 32) = Cert.ReferenceIdeal.ReadP.val_main_v6 (F := Ideal) x7)
    (h29 : (W main_v29 : S850000.Idx → EReal) = Cert.ReferenceIdeal.ReadP.val_main_v29 (F := Ideal) x7)
    (hx : (W main_v140 : S50000x64.Idx → EReal) = Cert.ReferenceIdeal.ReadP.val_main_v140 (F := Ideal) x0 x7)
    (hh : (W main_v143 : S50000x64.Idx → EReal) = Cert.ReferenceIdeal.ReadP.val_main_v143 (F := Ideal) x0 x7) :
    (after (List.take 20 (List.drop 20 (List.drop 20 (List.drop 20 (List.drop 20 (List.drop 20 (List.drop 20 (List.drop 20 (List.drop 22 hostOps0_2))))))))) W main_v3 : S850000.Idx → BitVec 32) = Cert.ReferenceIdeal.ReadP.val_main_v3 (F := Ideal) x7
    ∧ (after (List.take 20 (List.drop 20 (List.drop 20 (List.drop 20 (List.drop 20 (List.drop 20 (List.drop 20 (List.drop 20 (List.drop 22 hostOps0_2))))))))) W main_v6 : S850000.Idx → BitVec 32) = Cert.ReferenceIdeal.ReadP.val_main_v6 (F := Ideal) x7
    ∧ (after (List.take 20 (List.drop 20 (List.drop 20 (List.drop 20 (List.drop 20 (List.drop 20 (List.drop 20 (List.drop 20 (List.drop 22 hostOps0_2))))))))) W main_v29 : S850000.Idx → EReal) = Cert.ReferenceIdeal.ReadP.val_main_v29 (F := Ideal) x7
    ∧ (after (List.take 20 (List.drop 20 (List.drop 20 (List.drop 20 (List.drop 20 (List.drop 20 (List.drop 20 (List.drop 20 (List.drop 22 hostOps0_2))))))))) W main_v156 : S50000x64.Idx → EReal) = Cert.ReferenceIdeal.ReadP.val_main_v156 (F := Ideal) x0 x7
    ∧ (after (List.take 20 (List.drop 20 (List.drop 20 (List.drop 20 (List.drop 20 (List.drop 20 (List.drop 20 (List.drop 20 (List.drop 22 hostOps0_2))))))))) W main_v159 : S50000x64.Idx → EReal) = Cert.ReferenceIdeal.ReadP.val_main_v159 (F := Ideal) x0 x7 := by
  simp only [hostOps0_2, List.take_succ_cons, List.take_zero, List.drop_succ_cons, List.drop_zero]
  refine ⟨?_, ?_, ?_, ?_, ?_⟩
  · after_results_simp; exact h3
  · after_results_simp; exact h6
  · after_results_simp; exact h29
  · after_results_simp; rw [h3, h6, h29, hx]; rfl
  · after_results_simp; rw [h3, h6, h29, hx, hh]; rfl

end Cert.KernelIdeal.Rounds

end
-- ==== Proof.LibAfterAppend.lean ====
/-
  Running a list of host operations: the contents after `A ++ B` are the contents after `B`, started from the contents after `A`.
  (Lets a long operation list be cut at any place, the first part's contents then carried as one unknown.)
-/
import Idealize.ShloMosaic.Lib.StableHlo.Run

namespace Idealize.ShloMosaic.StableHlo

variable {τ : Topo} {sig : RefSig} {Val : EltTy → Type}

/-- The fold over an appended list is the fold over the second part of the fold over the first. -/
theorem after_append (A B : List (HloOp τ sig Val)) (M : Valuation τ sig Val) :
    after (A ++ B) M = after B (after A M) := by
  induction A generalizing M with
  | nil => rfl
  | cons a A ih => simp only [List.cons_append, after_cons, ih]

/-- Cut at position `n`: the first `n` operations, then the rest. -/
theorem after_take_drop (n : Nat) (L : List (HloOp τ sig Val)) (M : Valuation τ sig Val) :
    after L M = after (L.drop n) (after (L.take n) M) := by
  rw [← after_append, List.take_append_drop]

end Idealize.ShloMosaic.StableHlo
-- ==== Proof.Found.lean ====
/-
  What the region finds.  Before the kernel is launched the host computes the propagated features: the symmetric
  normalisation of the graph with self loops, eight rounds of gather, scale and scatter-add, and their weighted sum
  with the input.  The reference computes the same features by the same operations in the same order, so the
  array the kernel's feature window is cut from is, operation for operation, the value of the reference's operation
  159; nothing about those operations is used beyond their being the same.  The list of operations is cut into
  stretches (Before, Rounds), each run from the contents the one before left, so that no stretch opens another.
  The three bias windows are cut from the bias vectors cast to one-row matrices, and the weights are found as launched.
-/
import proofs.«104664_j15934328669027_1_alg».proof.Proof.Gen.KernelIdeal.Frame
import proofs.«104664_j15934328669027_1_alg».proof.Proof.ReadPatched
import proofs.«104664_j15934328669027_1_alg».proof.Proof.Before
import proofs.«104664_j15934328669027_1_alg».proof.Proof.Rounds
import proofs.«104664_j15934328669027_1_alg».proof.Proof.LibAfterAppend
import Idealize.ShloMosaic.Lib.Pipeline.Value
import Idealize.ShloMosaic.Lib.ValueIdx
import Idealize.ShloMosaic.Lib.StableHlo.Run

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 20000000 in
/-- The three casts of the bias vectors, the last operations before the launch, leave the features alone. -/
theorem last (W : Valuation τ sig (Elt Ideal)) :
    (after (List.drop 20 (List.drop 20 (List.drop 20 (List.drop 20 (List.drop 20 (List.drop 20 (List.drop 20 (List.drop 20 (List.drop 22 hostOps0_2))))))))) W main_v159 : S50000x64.Idx → EReal) = W main_v159 := by
  simp only [hostOps0_2, List.drop_succ_cons, List.drop_zero]
  after_results_simp <;> rfl

set_option maxHeartbeats 20000000 in
/-- The feature array the region finds is the reference's operation 159 of the node features and the edge list: the
    operations before the launch cut into the first stretch, the small function, the weights, the eight rounds and
    the three casts, each stretch run from the contents the one before left. -/
theorem feat_eq (c : Dev nD) :
    (V m c main_v159 : S50000x64.Idx → EReal)
      = Cert.ReferenceIdeal.ReadP.val_main_v159 (F := Ideal) (m ((c : Thread nD τ).loc main_arg0)) (m ((c : Thread nD τ).loc main_arg7)) := by
  obtain ⟨a3, a6, a12, a13, ac, aa⟩ := Cert.KernelIdeal.Before.first m c
  obtain ⟨b3, b6, b14, ba⟩ := Cert.KernelIdeal.Before.second _ _ _ a3 a6 a12 a13 ac aa
  obtain ⟨c3, c6, c29, ca, c31⟩ := Cert.KernelIdeal.Before.third _ _ _ b3 b6 b14 ba
  obtain ⟨d3, d6, d29, dx, dh⟩ := Cert.KernelIdeal.Rounds.round1 _ _ _ c3 c6 c29 ca c31
  obtain ⟨e3, e6, e29, ex, eh⟩ := Cert.KernelIdeal.Rounds.round2 _ _ _ d3 d6 d29 dx dh
  obtain ⟨f3, f6, f29, fx, fh⟩ := Cert.KernelIdeal.Rounds.round3 _ _ _ e3 e6 e29 ex eh
  obtain ⟨g3, g6, g29, gx, gh⟩ := Cert.KernelIdeal.Rounds.round4 _ _ _ f3 f6 f29 fx fh
  obtain ⟨h3, h6, h29, hx, hh⟩ := Cert.KernelIdeal.Rounds.round5 _ _ _ g3 g6 g29 gx gh
  obtain ⟨i3, i6, i29, ix, ih⟩ := Cert.KernelIdeal.Rounds.round6 _ _ _ h3 h6 h29 hx hh
  obtain ⟨j3, j6, j29, jx, jh⟩ := Cert.KernelIdeal.Rounds.round7 _ _ _ i3 i6 i29 ix ih
  obtain ⟨k3, k6, k29, kx, kh⟩ := Cert.KernelIdeal.Rounds.round8 _ _ _ j3 j6 j29 jx jh
  dsimp only [V]
  simp only [List.flatten_cons, List.flatten_nil, List.append_nil]
  rw [after_append, after_append, after_take_drop 22 hostOps0_2,
    after_take_drop 20 (List.drop 22 hostOps0_2),
    after_take_drop 20 (List.drop 20 (List.drop 22 hostOps0_2)),
    after_take_drop 20 (List.drop 20 (List.drop 20 (List.drop 22 hostOps0_2))),
    after_take_drop 20 (List.drop 20 (List.drop 20 (List.drop 20 (List.drop 22 hostOps0_2)))),
    after_take_drop 20 (List.drop 20 (List.drop 20 (List.drop 20 (List.drop 20 (List.drop 22 hostOps0_2))))),
    after_take_drop 20 (List.drop 20 (List.drop 20 (List.drop 20 (List.drop 20 (List.drop 20 (List.drop 22 hostOps0_2)))))),
    after_take_drop 20 (List.drop 20 (List.drop 20 (List.drop 20 (List.drop 20 (List.drop 20 (List.drop 20 (List.drop 22 hostOps0_2))))))),
    after_take_drop 20 (List.drop 20 (List.drop 20 (List.drop 20 (List.drop 20 (List.drop 20 (List.drop 20 (List.drop 20 (List.drop 22 hostOps0_2))))))))]
  exact (last _).trans kh

set_option maxRecDepth 16384 in
set_option maxHeartbeats 100000000 in
/-- The first bias window's array is the first bias vector cast to a one-row matrix. -/
theorem bias160 (c : Dev nD) :
    (V m c main_v160 : S1x64.Idx → EReal) = shapeCast S1x64 (m ((c : Thread nD τ).loc main_arg2)) shapeCasts_S64_S1x64 := by
  dsimp only [V]
  simp only [hostOps0, hostOps0_1, hostOps0_2, List.flatten_cons, List.flatten_nil, List.append_nil, List.cons_append, List.nil_append]
  after_results_simp
  rfl

set_option maxRecDepth 16384 in
set_option maxHeartbeats 100000000 in
/-- The second bias window's array is the second bias vector cast to a one-row matrix. -/
theorem bias161 (c : Dev nD) :
    (V m c main_v161 : S1x64.Idx → EReal) = shapeCast S1x64 (m ((c : Thread nD τ).loc main_arg4)) shapeCasts_S64_S1x64 := by
  dsimp only [V]
  simp only [hostOps0, hostOps0_1, hostOps0_2, List.flatten_cons, List.flatten_nil, List.append_nil, List.cons_append, List.nil_append]
  after_results_simp
  rfl

set_option maxRecDepth 16384 in
set_option maxHeartbeats 100000000 in
/-- The third bias window's array is the third bias vector cast to a one-row matrix. -/
theorem bias162 (c : Dev nD) :
    (V m c main_v162 : S1x64.Idx → EReal) = shapeCast S1x64 (m ((c : Thread nD τ).loc main_arg6)) shapeCasts_S64_S1x64 := by
  dsimp only [V]
  simp only [hostOps0, hostOps0_1, hostOps0_2, List.flatten_cons, List.flatten_nil, List.append_nil, List.cons_append, List.nil_append]
  after_results_simp
  rfl

/-- A vector of length 64 cast to a 1 x 64 matrix, read at (0, a), is the vector's entry a. -/
theorem row_cast (x : S64.Idx → EReal) (a : Fin 64) : shapeCast S1x64 x shapeCasts_S64_S1x64 (ix2 0 a) = x (ix1 a) := by
  refine (shapeCast_addUnit_apply (n := 1) ![64] x shapeCasts_S64_S1x64 (ix2 0 a)).trans (congrArg x (funext fun b => ?_))
  match b with
  | ⟨0, _⟩ => rfl

end Cert.KernelIdeal.Found

end
-- ==== Proof.Bridge.lean ====
/-
  The two sides meet.  The kernel's result array is the head of every row of the feature array the region finds, with
  the weights and bias rows it finds; the feature array is the reference's operation 159 of the launched node
  features and edge list, the weights are as launched, and each bias row is the launched bias vector.  So the
  kernel's result is the head of every row of the reference's propagated features -- which is what the reference's
  own last operations compute.
-/
import proofs.«104664_j15934328669027_1_alg».proof.Proof.Blocks
import proofs.«104664_j15934328669027_1_alg».proof.Proof.Found

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The kernel's result as a function of the launched arguments: the head of every row of the propagated features. -/
abbrev result (c : Dev nD) : S50000x64.Idx → EReal :=
  Cert.Head.rows (n := 50000)
    (Cert.ReferenceIdeal.ReadP.val_main_v159 (F := Ideal) (m ((c : Thread nD τ).loc main_arg0)) (m ((c : Thread nD τ).loc main_arg7)))
    (fun a k => (m ((c : Thread nD τ).loc main_arg1) : S64x64.Idx → EReal) (ix2 a k))
    (fun a => (m ((c : Thread nD τ).loc main_arg2) : S64.Idx → EReal) (ix1 a))
    (fun a k => (m ((c : Thread nD τ).loc main_arg3) : S64x64.Idx → EReal) (ix2 a k))
    (fun a => (m ((c : Thread nD τ).loc main_arg4) : S64.Idx → EReal) (ix1 a))
    (fun a k => (m ((c : Thread nD τ).loc main_arg5) : S64x64.Idx → EReal) (ix2 a k))
    (fun a => (m ((c : Thread nD τ).loc main_arg6) : S64.Idx → EReal) (ix1 a))

theorem whole_eq (c : Dev nD) : Cert.KernelIdeal.Whole.whole m c = result m c := by
  have f0 := Cert.KernelIdeal.Found.feat_eq m c
  have w1 : (fun a k : Fin 64 => (V m c main_arg1 : S64x64.Idx → EReal) (ix2 a k))
      = fun a k => (m ((c : Thread nD τ).loc main_arg1) : S64x64.Idx → EReal) (ix2 a k) := by rw [V_main_arg1]
  have w3 : (fun a k : Fin 64 => (V m c main_arg3 : S64x64.Idx → EReal) (ix2 a k))
      = fun a k => (m ((c : Thread nD τ).loc main_arg3) : S64x64.Idx → EReal) (ix2 a k) := by rw [V_main_arg3]
  have w5 : (fun a k : Fin 64 => (V m c main_arg5 : S64x64.Idx → EReal) (ix2 a k))
      = fun a k => (m ((c : Thread nD τ).loc main_arg5) : S64x64.Idx → EReal) (ix2 a k) := by rw [V_main_arg5]
  have b2 : (fun a : Fin 64 => (V m c main_v160 : S1x64.Idx → EReal) (ix2 0 a))
      = fun a => (m ((c : Thread nD τ).loc main_arg2) : S64.Idx → EReal) (ix1 a) :=
    funext fun a => by rw [Cert.KernelIdeal.Found.bias160]; exact Cert.KernelIdeal.Found.row_cast _ a
  have b4 : (fun a : Fin 64 => (V m c main_v161 : S1x64.Idx → EReal) (ix2 0 a))
      = fun a => (m ((c : Thread nD τ).loc main_arg4) : S64.Idx → EReal) (ix1 a) :=
    funext fun a => by rw [Cert.KernelIdeal.Found.bias161]; exact Cert.KernelIdeal.Found.row_cast _ a
  have b6 : (fun a : Fin 64 => (V m c main_v162 : S1x64.Idx → EReal) (ix2 0 a))
      = fun a => (m ((c : Thread nD τ).loc main_arg6) : S64.Idx → EReal) (ix1 a) :=
    funext fun a => by rw [Cert.KernelIdeal.Found.bias162]; exact Cert.KernelIdeal.Found.row_cast _ a
  show Cert.Head.rows (n := 50000) _ _ _ _ _ _ _ = Cert.Head.rows (n := 50000) _ _ _ _ _ _ _
  rw [f0, w1, w3, w5, b2, b4, b6]

/-- The kernel's run, read: the result array ends at `result`, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v163) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((Cert.KernelIdeal.Whole.final m c).trans (whole_eq m c)), (h c).2⟩)
    (Cert.KernelIdeal.Value.run_blocks m ρ)

end Cert.KernelIdeal.Bridge

end
-- ==== Proof.lean ====
/-
  The head of a simplified graph convolution network: kernel against reference, on the extended reals.

  Both programs first compute, on the host and by the very same operations, the propagated features h: the graph's
  symmetric normalisation with self loops, eight rounds of gather, scale and scatter-add, and the weighted sum of the
  rounds with the input.  The reference then applies three dense layers to h, each a product with a transposed
  64 x 64 weight plus a bias, with a maximum against zero after the first two; the kernel applies the same three layers
  to h in 25 blocks of 2000 rows.  Entry (p, q) of the head depends on row p of h alone, so the 25 blocks of the
  kernel's result are the blocks of the head of the whole array (Blocks), the body's arithmetic on one block is the
  head of the block's rows (BodyRows), the reference's last operations are the head of every row of h (RefHead), and
  the array the kernel's feature window is cut from is the reference's h, operation for operation (Found).  A change
  of float format is the identity on the extended reals and both sides spell the same sums, so no law of arithmetic is
  used and the precondition is never opened.  The ideal pass rewrote nothing, so `preserves` is trivial.
-/
import proofs.«104664_j15934328669027_1_alg».proof.Defs
import proofs.«104664_j15934328669027_1_alg».proof.Proof.Gen.Kernel
import proofs.«104664_j15934328669027_1_alg».proof.Proof.Gen.Kernel.Skeleton
import proofs.«104664_j15934328669027_1_alg».proof.Proof.Gen.Kernel.Launch
import proofs.«104664_j15934328669027_1_alg».proof.Proof.Gen.Kernel.Points
import proofs.«104664_j15934328669027_1_alg».proof.Proof.Gen.Kernel.Frame
import proofs.«104664_j15934328669027_1_alg».proof.Proof.Gen.KernelIdeal
import proofs.«104664_j15934328669027_1_alg».proof.Proof.Gen.KernelIdeal.Skeleton
import proofs.«104664_j15934328669027_1_alg».proof.Proof.Gen.KernelIdeal.Launch
import proofs.«104664_j15934328669027_1_alg».proof.Proof.Gen.KernelIdeal.Points
import proofs.«104664_j15934328669027_1_alg».proof.Proof.Gen.KernelIdeal.Frame
import proofs.«104664_j15934328669027_1_alg».proof.Proof.Gen.ReferenceIdeal
import proofs.«104664_j15934328669027_1_alg».proof.Proof.Gen.Pre_finite_inputs
import proofs.«104664_j15934328669027_1_alg».proof.Proof.Gen.KernelIdeal.Value
import proofs.«104664_j15934328669027_1_alg».proof.Proof.RunPatched
import proofs.«104664_j15934328669027_1_alg».proof.Proof.ReadPatched
import proofs.«104664_j15934328669027_1_alg».proof.Proof.RefHead
import proofs.«104664_j15934328669027_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments alone: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the head of every row of the propagated features. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v176_eq, Cert.ReferenceIdeal.RefHead.result_rows, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
